-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x32 .f32) (main_arg5 : FVec F S512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S512x32 .f32 := Host.absf main_arg4
  let main_cst_6 : FVec F S_ .f32 := constant S_ .f32 0x7F800000#32
  let main_v20 : FVec F S512x32 .f32 := broadcastInDim S512x32 ![] bcast_S_S512x32 main_cst_6
  let main_v21 : IVec S512x32 1 := cmpf .olt main_v19 main_v20
  let main_c_7 : IVec S_ 1 := constantI S_ 1 1#1
  let main_v22 : IVec S_ 1 := (fun x v => Host.reduce IntOp.andi x v reducesTo_S512x32_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S64x512x32x32 .f32) (main_arg1 : FVec F S32x512 .f32) (main_arg2 : FVec F S32 .f32) (main_arg3 : FVec F S32 .f32) (main_arg4 : FVec F S512x32 .f32) (main_arg5 : FVec F S512 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S64x512x32x32 : Shape := ⟨4, ![64, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S64x512x1024 : Shape := ⟨3, ![64, 512, 1024]⟩
abbrev S32x1 : Shape := ⟨2, ![32, 1]⟩
abbrev S512x1 : Shape := ⟨2, ![512, 1]⟩
abbrev S1x512x1024 : Shape := ⟨3, ![1, 512, 1024]⟩
abbrev S512x1024 : Shape := ⟨2, ![512, 1024]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S64x512x32x32, .f32⟩
  | .hbm, ⟨1, _⟩ => ⟨S32x512, .f32⟩
  | .hbm, ⟨2, _⟩ => ⟨S32, .f32⟩
  | .hbm, ⟨3, _⟩ => ⟨S32, .f32⟩
  | .hbm, ⟨4, _⟩ => ⟨S512x32, .f32⟩
  | .hbm, ⟨5, _⟩ => ⟨S512, .f32⟩
  | .hbm, ⟨6, _⟩ => ⟨S64x512x1024, .f32⟩
  | .hbm, ⟨7, _⟩ => ⟨S32x1, .f32⟩
  | .hbm, ⟨8, _⟩ => ⟨S32x1, .f32⟩
  | .hbm, ⟨9, _⟩ => ⟨S512x1, .f32⟩
  | .hbm, ⟨10, _⟩ => ⟨S64x512x1024, .f32⟩
  | .hbm, ⟨11, _⟩ => ⟨S64x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S32x512, .f32⟩
  | .local _ .vmem, ⟨3, _⟩ => ⟨S32x1, .f32⟩
  | .local _ .vmem, ⟨4, _⟩ => ⟨S32x1, .f32⟩
  | .local _ .vmem, ⟨5, _⟩ => ⟨S512x32, .f32⟩
  | .local _ .vmem, ⟨6, _⟩ => ⟨S512x1, .f32⟩
  | .local _ .vmem, ⟨7, _⟩ => ⟨S1x512x1024, .f32⟩
  | .local _ .vmem, ⟨8, _⟩ => ⟨S1x512x1024, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x512x32x32_S64x512x1024 : S64x512x32x32.ShapeCasts S64x512x1024
  shapeCasts_S32_S32x1 : S32.ShapeCasts S32x1
  shapeCasts_S512_S512x1 : S512.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S32x512_S32x512_0_0 : ∀ a, (![0, 0] : Fin 2 → Nat) a + S32x512.size a ≤ S32x512.size a
  h_S32x512 : 0 < S32x512.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S512x32_S512x32_0_0 : ∀ a, (![0, 0] : Fin 2 → Nat) a + S512x32.size a ≤ S512x32.size a
  h_S512x32 : 0 < S512x32.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  shapeCasts_S512x1024_S1x512x1024 : S512x1024.ShapeCasts S1x512x1024
  shapeCasts_S64x512x1024_S64x512x32x32 : S64x512x1024.ShapeCasts S64x512x32x32
  dot_S512x1024_S1024x1_S512x1_1_0_0_1_n_n_wf : DotDims.WF S512x1024 S1024x1 S512x1 [1] [0] [0] [1] [] []
  dot_S32x512_S512x1_S32x1_1_0_0_1_n_n_wf : DotDims.WF S32x512 S512x1 S32x1 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S512x32.size a
  hwx0_4 : ∀ i : grid0.Coords, EltTy.bits .f32 = 32 ∨ (Rect.block (s := S512x32) S512x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S64x512x1024.size a
  hwx0_6 : ∀ i : grid0.Coords, EltTy.bits .f32 = 32 ∨ (Rect.block (s := S64x512x1024) S1x512x1024.size (cc0_transform_6 i) (hinb0_6 i)).WholeWords (EltTy.packing .f32)

variable [Facts₀]

def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x32x32 : Shape := ⟨4, ![64, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S64x512x1024 : Shape := ⟨3, ![64, 512, 1024]⟩
abbrev S32x1 : Shape := ⟨2, ![32, 1]⟩
abbrev S512x1 : Shape := ⟨2, ![512, 1]⟩
abbrev S4x512x1024 : Shape := ⟨3, ![4, 512, 1024]⟩
abbrev S1x512x1024 : Shape := ⟨3, ![1, 512, 1024]⟩
abbrev S512x1024 : Shape := ⟨2, ![512, 1024]⟩
abbrev S512x4 : Shape := ⟨2, ![512, 4]⟩
abbrev S32x4 : Shape := ⟨2, ![32, 4]⟩

abbrev nBuf : Space → Nat
  | .hbm => 12
  | .vmem => 9
  | .smem => 0
  | _ => 0

abbrev bufTy : (tb : Table) → Fin (tcTables nBuf tb) → BufTy
  | .hbm, ⟨0, _⟩ => ⟨S64x512x32x32, .f32⟩
  | .hbm, ⟨1, _⟩ => ⟨S32x512, .f32⟩
  | .hbm, ⟨2, _⟩ => ⟨S32, .f32⟩
  | .hbm, ⟨3, _⟩ => ⟨S32, .f32⟩
  | .hbm, ⟨4, _⟩ => ⟨S512x32, .f32⟩
  | .hbm, ⟨5, _⟩ => ⟨S512, .f32⟩
  | .hbm, ⟨6, _⟩ => ⟨S64x512x1024, .f32⟩
  | .hbm, ⟨7, _⟩ => ⟨S32x1, .f32⟩
  | .hbm, ⟨8, _⟩ => ⟨S512x1, .f32⟩
  | .hbm, ⟨9, _⟩ => ⟨S32x1, .f32⟩
  | .hbm, ⟨10, _⟩ => ⟨S64x512x1024, .f32⟩
  | .hbm, ⟨11, _⟩ => ⟨S64x512x32x32, .f32⟩
  | .local _ .vmem, ⟨0, _⟩ => ⟨S4x512x1024, .f32⟩
  | .local _ .vmem, ⟨1, _⟩ => ⟨S4x512x1024, .f32⟩
  | .local _ .vmem, ⟨2, _⟩ => ⟨S32x512, .f32⟩
  | .local _ .vmem, ⟨3, _⟩ => ⟨S32x1, .f32⟩
  | .local _ .vmem, ⟨4, _⟩ => ⟨S32x1, .f32⟩
  | .local _ .vmem, ⟨5, _⟩ => ⟨S512x32, .f32⟩
  | .local _ .vmem, ⟨6, _⟩ => ⟨S512x1, .f32⟩
  | .local _ .vmem, ⟨7, _⟩ => ⟨S4x512x1024, .f32⟩
  | .local _ .vmem, ⟨8, _⟩ => ⟨S4x512x1024, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x512x32x32_S64x512x1024 : S64x512x32x32.ShapeCasts S64x512x1024
  shapeCasts_S32_S32x1 : S32.ShapeCasts S32x1
  shapeCasts_S512_S512x1 : S512.ShapeCasts S512x1
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  reduces_S512x1024_S512 : S512x1024.Reduces [1] S512
  inb_S4x512x1024_S1x512x1024_1_0_0 : ∀ a, (![1, 0, 0] : Fin 3 → Nat) a + S1x512x1024.size a ≤ S4x512x1024.size a
  inb_S4x512x1024_S1x512x1024_2_0_0 : ∀ a, (![2, 0, 0] : Fin 3 → Nat) a + S1x512x1024.size a ≤ S4x512x1024.size a
  inb_S4x512x1024_S1x512x1024_3_0_0 : ∀ a, (![3, 0, 0] : Fin 3 → Nat) a + S1x512x1024.size a ≤ S4x512x1024.size a
  concatenates_S512x1_S512x1_S512x1_S512x1_S512x4_d1 : Shape.Concatenates [S512x1, S512x1, S512x1, S512x1] S512x4 1
  inb_S32x512_S32x512_0_0 : ∀ a, (![0, 0] : Fin 2 → Nat) a + S32x512.size a ≤ S32x512.size a
  h_S32x512 : 0 < S32x512.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4 : S32x1.Broadcasts S32x4
  inb_S512x32_S512x32_0_0 : ∀ a, (![0, 0] : Fin 2 → Nat) a + S512x32.size a ≤ S512x32.size a
  h_S512x32 : 0 < S512x32.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4 : S512x1.Broadcasts S512x4
  slices_S512x4_o0_0_S512x1 : S512x4.Slices ![0, 0] S512x1
  broadcasts_S512x1_S512x1024 : S512x1.Broadcasts S512x1024
  shapeCasts_S512x1024_S1x512x1024 : S512x1024.ShapeCasts S1x512x1024
  slices_S512x4_o0_1_S512x1 : S512x4.Slices ![0, 1] S512x1
  slices_S512x4_o0_2_S512x1 : S512x4.Slices ![0, 2] S512x1
  slices_S512x4_o0_3_S512x1 : S512x4.Slices ![0, 3] S512x1
  shapeCasts_S64x512x1024_S64x512x32x32 : S64x512x1024.ShapeCasts S64x512x32x32
  dot_S32x512_S512x4_S32x4_1_0_0_1_n_n_wf : DotDims.WF S32x512 S512x4 S32x4 [1] [0] [0] [1] [] []
  dot_S512x32_S32x4_S512x4_1_0_0_1_n_n_wf : DotDims.WF S512x32 S32x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S64x512x1024.size a
  hwx0_0 : ∀ i : grid0.Coords, EltTy.bits .f32 = 32 ∨ (Rect.block (s := S64x512x1024) S4x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S512x32.size a
  hwx0_4 : ∀ i : grid0.Coords, EltTy.bits .f32 = 32 ∨ (Rect.block (s := S512x32) S512x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512x1024.size a ≤ S64x512x1024.size a
  hwx0_6 : ∀ i : grid0.Coords, EltTy.bits .f32 = 32 ∨ (Rect.block (s := S64x512x1024) S4x512x1024.size (cc0_transform_6 i) (hinb0_6 i)).WholeWords (EltTy.packing .f32)

variable [Facts₀]

def dot_S32x512_S512x4_S32x4_1_0_0_1_n_n : DotDims S32x512 S512x4 S32x4 where
  lhsContracting := [1]
  rhsContracting := [0]
  lhsNonContracting := [0]
  rhsNonContracting := [1]
  lhsBatch := []
  rhsBatch := []
  wf := dot_S32x512_S512x4_S32x4_1_0_0_1_n_n_wf
def dot_S512x32_S32x4_S512x4_1_0_0_1_n_n : DotDims S512x32 S32x4 S512x4 where
  lhsContracting := [1]
  rhsContracting := [0]
  lhsNonContracting := [0]
  rhsNonContracting := [1]
  lhsBatch := []
  rhsBatch := []
  wf := dot_S512x32_S32x4_S512x4_1_0_0_1_n_n_wf

abbrev win0_0 : Pipeline.Window sig grid0 :=
  Pipeline.Window.ofSpec (Memref.whole main_v0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S4x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.LibSumScale.lean ====
/-
  Scaling a finite sum of extended reals.

  The extended reals are not a semiring: a product does not distribute over a sum when the factor is infinite or
  negative and the summands are infinite of both signs.  A factor that is a nonnegative real does distribute,
  over every finite sum and whatever the summands, infinite ones included (the sum of an infinite positive and an
  infinite negative entry is the negative infinity on both sides).  So a finite sum divided by a positive real d
  is the sum of the entries each multiplied by 1 / d: the mean of n entries taken as "sum, then divide by n" and
  as "scale each entry by 1 / n, then sum" agree with no finiteness assumption on the entries.
-/
import Idealize.ShloMosaic.PureOps.Ideal

noncomputable section

namespace Cert.LibSumScale

open Idealize.ShloMosaic
open scoped BigOperators

/-- Multiplication by a nonnegative finite extended real distributes over a finite sum of extended reals. -/
theorem sum_mul_of_nonneg {ι : Type} (s : Finset ι) (y : ι → EReal) {a : EReal} (h0 : 0 ≤ a) (ht : a ≠ ⊤) :
    (∑ k ∈ s, y k) * a = ∑ k ∈ s, y k * a := by
  classical
  induction s using Finset.induction_on with
  | empty => simp
  | insert k s hk ih =>
    rw [Finset.sum_insert hk, Finset.sum_insert hk, EReal.right_distrib_of_nonneg_of_ne_top h0 ht, ih]

/-- The same with the factor on the left. -/
theorem mul_sum_of_nonneg {ι : Type} (s : Finset ι) (y : ι → EReal) {a : EReal} (h0 : 0 ≤ a) (ht : a ≠ ⊤) :
    a * (∑ k ∈ s, y k) = ∑ k ∈ s, a * y k := by
  rw [mul_comm, sum_mul_of_nonneg s y h0 ht]
  exact Finset.sum_congr rfl fun k _ => mul_comm _ _

/-- A finite sum divided by a positive real is the sum of the entries each multiplied by its reciprocal. -/
theorem sum_div_coe {ι : Type} (s : Finset ι) (y : ι → EReal) {d : ℝ} (hd : 0 < d) :
    Ideal.div (∑ k ∈ s, y k) (d : EReal) = ∑ k ∈ s, y k * ((1 / d : ℝ) : EReal) := by
  rw [Ideal.div_coe (ne_of_gt hd)]
  exact sum_mul_of_nonneg s y (by exact_mod_cast (le_of_lt (one_div_pos.mpr hd))) (EReal.coe_ne_top _)

end Cert.LibSumScale

end
-- ==== Proof.Spec.lean ====
/-
  The squeeze-and-excitation block as one function of its argument arrays, on the extended reals.

  For an image n, a channel c and a pixel k of an activation array x of extents 64 x 512 x 1024 the result is
      x(n,c,k) * gate(n,c),
  where
      pooled(n,c') = sum over k' of x(n,c',k') * 2^-10                      (the spatial mean, 1024 pixels)
      hidden(n,r)  = prelu (sum over c' of w1(r,c') * pooled(n,c') + b1(r))  (32 hidden units, slope alpha(r))
      gate(n,c)    = logistic (sum over r of w2(c,r) * hidden(n,r) + b2(c)).
  prelu h is h where h >= 0 holds and alpha * h elsewhere.  The bias and slope vectors enter as one-column
  matrices.  The gate is written as a function of the vector of pooled means so that the two arrangements of
  the mean, a sum of entries each scaled by 2^-10 and a sum divided by 1024, share every later step.

  The one law that joins the two arrangements: on the extended reals multiplication by a nonnegative real
  distributes over any finite sum, infinite entries included (LibSumScale.lean), and division by 1024 is
  multiplication by its reciprocal 2^-10, which is the value of the single precision word 0x3A800000.
-/
import Idealize.ShloMosaic.Lib.ValueIdx
import Idealize.ShloMosaic.PureOps.Ideal.Laws
import proofs.«157985_g2000001063056853_pallasbulk_837_2_alg».proof.Proof.LibSumScale

noncomputable section

namespace Cert.Excite

open Idealize.ShloMosaic Idealize.ShloMosaic.ValueIdx
open scoped BigOperators

/-- The activation before its activation function: the first layer's row r applied to the pooled means, plus the bias. -/
def preact (p : Fin 512 → EReal) (w1 : (⟨2, ![32, 512]⟩ : Shape).Idx → EReal) (b1 : (⟨2, ![32, 1]⟩ : Shape).Idx → EReal)
    (r : Fin 32) : EReal :=
  (∑ c : Fin 512, w1 (ix2 r c) * p c) + b1 (ix2 r (0 : Fin 1))

/-- Hidden unit r: the parametric rectifier of the first layer's output, slope al(r) on the negative side. -/
def hidden (p : Fin 512 → EReal) (w1 : (⟨2, ![32, 512]⟩ : Shape).Idx → EReal) (b1 al : (⟨2, ![32, 1]⟩ : Shape).Idx → EReal)
    (r : Fin 32) : EReal :=
  Scalar.select (FloatOps.cmpf (F := Ideal) (φ := .f32) .oge (preact p w1 b1 r) (Ideal.ofBits .f32 0x00000000#32))
    (preact p w1 b1 r) (al (ix2 r (0 : Fin 1)) * preact p w1 b1 r)

/-- The gate of channel c: the logistic function of the second layer's output. -/
def gate (p : Fin 512 → EReal) (w1 : (⟨2, ![32, 512]⟩ : Shape).Idx → EReal) (b1 al : (⟨2, ![32, 1]⟩ : Shape).Idx → EReal)
    (w2 : (⟨2, ![512, 32]⟩ : Shape).Idx → EReal) (b2 : (⟨2, ![512, 1]⟩ : Shape).Idx → EReal) (c : Fin 512) : EReal :=
  Ideal.logistic ((∑ r : Fin 32, w2 (ix2 c r) * hidden p w1 b1 al r) + b2 (ix2 c (0 : Fin 1)))

/-- The spatial mean of channel c of image n, each pixel scaled by 2^-10 before the sum. -/
def pooled (x : (⟨3, ![64, 512, 1024]⟩ : Shape).Idx → EReal) (n : Fin 64) (c : Fin 512) : EReal :=
  ∑ k : Fin 1024, x (ix3 n c k) * Ideal.ofBits .f32 0x3A800000#32

/-- The whole result: every pixel scaled by its channel's gate. -/
def G (x : (⟨3, ![64, 512, 1024]⟩ : Shape).Idx → EReal) (w1 : (⟨2, ![32, 512]⟩ : Shape).Idx → EReal)
    (b1 al : (⟨2, ![32, 1]⟩ : Shape).Idx → EReal) (w2 : (⟨2, ![512, 32]⟩ : Shape).Idx → EReal)
    (b2 : (⟨2, ![512, 1]⟩ : Shape).Idx → EReal) : (⟨3, ![64, 512, 1024]⟩ : Shape).Idx → EReal :=
  fun i => x i * gate (pooled x (i 0)) w1 b1 al w2 b2 (i 1)

theorem G_apply (x : (⟨3, ![64, 512, 1024]⟩ : Shape).Idx → EReal) (w1 : (⟨2, ![32, 512]⟩ : Shape).Idx → EReal)
    (b1 al : (⟨2, ![32, 1]⟩ : Shape).Idx → EReal) (w2 : (⟨2, ![512, 32]⟩ : Shape).Idx → EReal)
    (b2 : (⟨2, ![512, 1]⟩ : Shape).Idx → EReal) (n : Fin 64) (c : Fin 512) (k : Fin 1024) :
    G x w1 b1 al w2 b2 (ix3 n c k) = x (ix3 n c k) * gate (pooled x n) w1 b1 al w2 b2 c := rfl

/-- The program's result over the argument arrays as they are given: the activation array 64 x 512 x 32 x 32 with
    its two pixel axes merged, the two bias vectors and the slope vector as columns, the whole-array function, and
    the pixel axes split again. -/
def result (h0 : (⟨4, ![64, 512, 32, 32]⟩ : Shape).ShapeCasts ⟨3, ![64, 512, 1024]⟩)
    (h1 : (⟨1, ![32]⟩ : Shape).ShapeCasts ⟨2, ![32, 1]⟩) (h2 : (⟨1, ![512]⟩ : Shape).ShapeCasts ⟨2, ![512, 1]⟩)
    (h3 : (⟨3, ![64, 512, 1024]⟩ : Shape).ShapeCasts ⟨4, ![64, 512, 32, 32]⟩)
    (x : (⟨4, ![64, 512, 32, 32]⟩ : Shape).Idx → EReal) (w1 : (⟨2, ![32, 512]⟩ : Shape).Idx → EReal)
    (b1 al : (⟨1, ![32]⟩ : Shape).Idx → EReal) (w2 : (⟨2, ![512, 32]⟩ : Shape).Idx → EReal)
    (b2 : (⟨1, ![512]⟩ : Shape).Idx → EReal) : (⟨4, ![64, 512, 32, 32]⟩ : Shape).Idx → EReal :=
  shapeCast ⟨4, ![64, 512, 32, 32]⟩
    (G (shapeCast ⟨3, ![64, 512, 1024]⟩ x h0) w1 (shapeCast ⟨2, ![32, 1]⟩ b1 h1) (shapeCast ⟨2, ![32, 1]⟩ al h1) w2
      (shapeCast ⟨2, ![512, 1]⟩ b2 h2)) h3

/-! ## The two arrangements of the mean -/

/-- The word 0x44800000 is 1024. -/
theorem ofBits_1024 : Ideal.ofBits .f32 0x44800000#32 = ((1024 : ℝ) : EReal) := by
  simp [Ideal.ofBits, Ideal.ieee, -EReal.coe_mul]; norm_num

/-- The word 0x3A800000 is 2^-10. -/
theorem ofBits_inv_1024 : Ideal.ofBits .f32 0x3A800000#32 = ((1 / 1024 : ℝ) : EReal) := by
  simp [Ideal.ofBits, Ideal.ieee, -EReal.coe_mul]; norm_num

/-- A sum divided by 1024 is the sum of the entries each scaled by 2^-10. -/
theorem mean_eq (y : Fin 1024 → EReal) :
    Ideal.div (∑ k : Fin 1024, y k) (Ideal.ofBits .f32 0x44800000#32)
      = ∑ k : Fin 1024, y k * Ideal.ofBits .f32 0x3A800000#32 := by
  rw [ofBits_1024, ofBits_inv_1024]
  exact Cert.LibSumScale.sum_div_coe Finset.univ y (by norm_num : (0 : ℝ) < 1024)

end Cert.Excite

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.KernelBody.lean ====
/-
  What one grid point of the kernel computes, read at an index.

  The body sees one image as a 1 x 512 x 1024 block, views it as a 512 x 1024 matrix, and forms the column of
  pooled means as the product of that matrix with a 1024 x 1 column of the constant 2^-10.  Two more matrix
  products, each into a zero accumulator and each followed by a bias column, the rectifier between them and the
  logistic function after them give the 512 x 1 column of gates, which is spread over the 1024 pixels and
  multiplies the image.  Read at (u, c, k) the stored block is therefore
      block(0,c,k) * gate(c),
  the gate taken over the pooled means  sum over k' of block(0,c',k') * 2^-10.
-/
import proofs.«157985_g2000001063056853_pallasbulk_837_2_alg».proof.Proof.Gen.KernelIdeal.Skeleton
import proofs.«157985_g2000001063056853_pallasbulk_837_2_alg».proof.Proof.Spec
import proofs.«157985_g2000001063056853_pallasbulk_837_2_alg».proof.Proof.LibDot
import proofs.«157985_g2000001063056853_pallasbulk_837_2_alg».proof.Proof.LibKeepdims
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Excite
open scoped BigOperators

/-- The rectifier respects equal arguments. -/
theorem prelu_congr {a b s s' : EReal} (h : a = b) (h' : s = s') :
    Scalar.select (FloatOps.cmpf (F := Ideal) (φ := .f32) .oge a (Scalar.ofBits (F := Ideal) .f32 0x00000000#32)) a (s * a)
      = Scalar.select (FloatOps.cmpf (F := Ideal) (φ := .f32) .oge b (Ideal.ofBits .f32 0x00000000#32)) b (s' * b) := by
  subst h h'; rfl

/-- The pooled means of the block: each pixel of row c' scaled by 2^-10, summed. -/
abbrev blockMeans (x0 : Vec Ideal S1x512x1024 .f32) : Fin 512 → EReal :=
  fun c' => ∑ k' : Fin 1024, x0 (ix3 (0 : Fin 1) c' k') * Ideal.ofBits .f32 0x3A800000#32

/-- The stored block at (u, c, k): the pixel times its channel's gate. -/
theorem pay_apply (x0 : Vec Ideal S1x512x1024 .f32) (x1 : Vec Ideal S32x512 .f32) (x2 x3 : Vec Ideal S32x1 .f32)
    (x4 : Vec Ideal S512x32 .f32) (x5 : Vec Ideal S512x1 .f32) (u : Fin 1) (c : Fin 512) (k : Fin 1024) :
    k0_pay1 (F := Ideal) x0 x1 x2 x3 x4 x5 (ix3 u c k)
      = x0 (ix3 (0 : Fin 1) c k) * gate (blockMeans x0) x1 x2 x3 x4 x5 c := by
  unfold k0_pay1
  refine (shapeCast_ab_1ab_apply _ _ u c k).trans ?_
  refine congrArg₂ (· * ·) (shapeCast_1ab_ab_apply x0 _ c k) ?_
  refine (broadcastTo_a1_ab_apply _ _ c k).trans ?_
  unfold Cert.Excite.gate
  refine congrArg Ideal.logistic ?_
  refine congrArg₂ (· + ·) ?_ (congrFun (shapeCast_self x5 _) _)
  refine (Cert.LibDot.matmul_zero_apply _ none x4 _ c (0 : Fin 1)).trans ?_
  refine Finset.sum_congr rfl fun r _ => congrArg (x4 (ix2 c r) * ·) ?_
  unfold Cert.Excite.hidden
  refine prelu_congr ?_ (congrFun (shapeCast_self x3 _) _)
  unfold Cert.Excite.preact
  refine congrArg₂ (· + ·) ?_ (congrFun (shapeCast_self x2 _) _)
  refine (Cert.LibDot.matmul_zero_apply _ none x1 _ r (0 : Fin 1)).trans ?_
  refine Finset.sum_congr rfl fun c' _ => congrArg (x1 (ix2 r c') * ·) ?_
  refine (Cert.LibDot.matmul_zero_apply _ none _ _ c' (0 : Fin 1)).trans ?_
  refine Finset.sum_congr rfl fun k' _ => ?_
  exact congrArg (· * Ideal.ofBits .f32 0x3A800000#32) (shapeCast_1ab_ab_apply x0 _ c' k')

/-- One grid point against the whole-array function: when the image block is image n of the activation array
    and the five parameter blocks are the parameter arrays, the stored block at (u, c, k) is the result at (n, c, k). -/
theorem point_eq (x0 : Vec Ideal S1x512x1024 .f32) (x1 : Vec Ideal S32x512 .f32) (x2 x3 : Vec Ideal S32x1 .f32)
    (x4 : Vec Ideal S512x32 .f32) (x5 : Vec Ideal S512x1 .f32)
    (X : (⟨3, ![64, 512, 1024]⟩ : Shape).Idx → EReal) (W1 : (⟨2, ![32, 512]⟩ : Shape).Idx → EReal)
    (B1 AL : (⟨2, ![32, 1]⟩ : Shape).Idx → EReal) (W2 : (⟨2, ![512, 32]⟩ : Shape).Idx → EReal)
    (B2 : (⟨2, ![512, 1]⟩ : Shape).Idx → EReal) (n : Fin 64)
    (h0 : ∀ (c : Fin 512) (k : Fin 1024), x0 (ix3 (0 : Fin 1) c k) = X (ix3 n c k))
    (h1 : ∀ i, x1 i = W1 i) (h2 : ∀ i, x2 i = B1 i) (h3 : ∀ i, x3 i = AL i) (h4 : ∀ i, x4 i = W2 i)
    (h5 : ∀ i, x5 i = B2 i) (u : Fin 1) (c : Fin 512) (k : Fin 1024) :
    k0_pay1 (F := Ideal) x0 x1 x2 x3 x4 x5 (ix3 u c k) = G X W1 B1 AL W2 B2 (ix3 n c k) := by
  obtain rfl : x1 = W1 := funext h1
  obtain rfl : x2 = B1 := funext h2
  obtain rfl : x3 = AL := funext h3
  obtain rfl : x4 = W2 := funext h4
  obtain rfl : x5 = B2 := funext h5
  rw [pay_apply, G_apply, h0 c k]
  have hp : blockMeans x0 = pooled X n := funext fun c' => Finset.sum_congr rfl fun k' _ => by rw [h0 c' k']
  rw [hp]

end Cert.KernelIdeal.Body

end
-- ==== Proof.KernelValue.lean ====
/-
  The kernel's run, read: what the result array holds when the program ends.

  The grid has 64 points, one image each: point t fetches image t of the activation array (viewed with its two
  pixel axes merged, 64 x 512 x 1024) and the five parameter arrays whole, and writes back image t of the output.
  So what point t writes back is block t of the one whole-array function G, the 64 blocks cover the output array,
  and the output array ends holding G.  The line after the region views the output with the pixel axes split again.
-/
import proofs.«157985_g2000001063056853_pallasbulk_837_2_alg».proof.Proof.Gen.KernelIdeal.Frame
import proofs.«157985_g2000001063056853_pallasbulk_837_2_alg».proof.Proof.KernelBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen Idealize.ShloMosaic.ValueIdx Cert.Excite

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: the image windows are at block t of the leading axis, the parameter windows
    at block zero. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem lt_N (t : Fin cfg0.N) : t.val < 64 := lt_of_lt_of_eq t.isLt (show cfg0.N = 64 from N_0)

/-- The image block at point t is image t of the activation array. -/
theorem iblk0_apply (c : Dev nD) (t : Fin cfg0.N) (u : Fin 1) (ch : Fin 512) (k : Fin 1024) :
    (iblk m c 0 t : Vec Ideal S1x512x1024 .f32) (ix3 u ch k)
      = (V m c main_v0 : S64x512x1024.Idx → EReal) (ix3 (⟨t.val, lt_N t⟩ : Fin 64) ch k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * u.val = t.val; rw [e0]; omega
  | ⟨1, _⟩ => show win0_0.index t (1 : Fin 3) * 512 + 1 * ch.val = ch.val; rw [e1]; omega
  | ⟨2, _⟩ => show win0_0.index t (2 : Fin 3) * 1024 + 1 * k.val = k.val; rw [e2]; omega

/-- Each parameter block is its whole array. -/
theorem iblk1_apply (c : Dev nD) (t : Fin cfg0.N) (i : S32x512.Idx) :
    (iblk m c 1 t : Vec Ideal S32x512 .f32) i = (V m c main_arg1 : S32x512.Idx → EReal) i := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 32 + 1 * (i 0).val = (i 0).val; rw [e0]; omega
  | ⟨1, _⟩ => show win0_1.index t (1 : Fin 2) * 512 + 1 * (i 1).val = (i 1).val; rw [e1]; omega

theorem iblk2_apply (c : Dev nD) (t : Fin cfg0.N) (i : S32x1.Idx) :
    (iblk m c 2 t : Vec Ideal S32x1 .f32) i = (V m c main_v1 : S32x1.Idx → EReal) i := by
  obtain ⟨-, -, -, -, -, -, -, -, e0, e1, -⟩ := idx_facts t
  unfold iblk
  rw [View.read_apply]
  show V m c main_v1 _ = V m c main_v1 _
  congr 1
  funext a
  apply Fin.ext
  match a with
  | ⟨0, _⟩ => show win0_2.index t (0 : Fin 2) * 32 + 1 * (i 0).val = (i 0).val; rw [e0]; omega
  | ⟨1, _⟩ => show win0_2.index t (1 : Fin 2) * 1 + 1 * (i 1).val = (i 1).val; rw [e1]; omega

theorem iblk3_apply (c : Dev nD) (t : Fin cfg0.N) (i : S32x1.Idx) :
    (iblk m c 3 t : Vec Ideal S32x1 .f32) i = (V m c main_v2 : S32x1.Idx → EReal) i := by
  obtain ⟨-, -, -, -, -, -, -, -, -, -, e0, e1, -⟩ := idx_facts t
  unfold iblk
  rw [View.read_apply]
  show V m c main_v2 _ = V m c main_v2 _
  congr 1
  funext a
  apply Fin.ext
  match a with
  | ⟨0, _⟩ => show win0_3.index t (0 : Fin 2) * 32 + 1 * (i 0).val = (i 0).val; rw [e0]; omega
  | ⟨1, _⟩ => show win0_3.index t (1 : Fin 2) * 1 + 1 * (i 1).val = (i 1).val; rw [e1]; omega

theorem iblk4_apply (c : Dev nD) (t : Fin cfg0.N) (i : S512x32.Idx) :
    (iblk m c 4 t : Vec Ideal S512x32 .f32) i = (V m c main_arg4 : S512x32.Idx → EReal) i := by
  obtain ⟨-, -, -, -, -, -, -, -, -, -, -, -, e0, e1, -⟩ := idx_facts t
  unfold iblk
  rw [View.read_apply]
  show V m c main_arg4 _ = V m c main_arg4 _
  congr 1
  funext a
  apply Fin.ext
  match a with
  | ⟨0, _⟩ => show win0_4.index t (0 : Fin 2) * 512 + 1 * (i 0).val = (i 0).val; rw [e0]; omega
  | ⟨1, _⟩ => show win0_4.index t (1 : Fin 2) * 32 + 1 * (i 1).val = (i 1).val; rw [e1]; omega

theorem iblk5_apply (c : Dev nD) (t : Fin cfg0.N) (i : S512x1.Idx) :
    (iblk m c 5 t : Vec Ideal S512x1 .f32) i = (V m c main_v3 : S512x1.Idx → EReal) i := by
  obtain ⟨-, -, -, -, -, -, -, -, -, -, -, -, -, -, e0, e1⟩ := idx_facts t
  unfold iblk
  rw [View.read_apply]
  show V m c main_v3 _ = V m c main_v3 _
  congr 1
  funext a
  apply Fin.ext
  match a with
  | ⟨0, _⟩ => show win0_5.index t (0 : Fin 2) * 512 + 1 * (i 0).val = (i 0).val; rw [e0]; omega
  | ⟨1, _⟩ => show win0_5.index t (1 : Fin 2) * 1 + 1 * (i 1).val = (i 1).val; rw [e1]; omega

/-- The result as the region's arrays give it: G of the activation array with merged pixel axes and the
    parameter arrays as the region finds them. -/
abbrev GV (c : Dev nD) : S64x512x1024.Idx → EReal :=
  G (V m c main_v0) (V m c main_arg1) (V m c main_v1) (V m c main_v2) (V m c main_arg4) (V m c main_v3)

/-- What point t writes back is block t of the whole-array function. -/
theorem flushed_eq (c : Dev nD) (t : Fin cfg0.N) :
    (dats m 0 c).flushed 6 t = ((cfg0.win 6).blk t).view.read (Elt Ideal) (GV m c) := by
  show (cfg0.win 6).cut (grid0.coords t) ((dats m 0 c).after 6 t) = _
  rw [after0_6]
  unfold out0_6
  rw [View.canon_unit_zero hz3]
  simp only [View.ld_unit_zero (S := S1x512x1024) hz3, View.ld_unit_zero (S := S32x512) hz2,
    View.ld_unit_zero (S := S32x1) hz2, View.ld_unit_zero (S := S512x32) hz2, View.ld_unit_zero (S := S512x1) hz2]
  obtain ⟨-, -, -, e0, e1, e2, -⟩ := idx_facts t
  funext j
  have hu : (j 0).val < 1 := (j 0).isLt
  have hc : (j 1).val < 512 := (j 1).isLt
  have hk : (j 2).val < 1024 := (j 2).isLt
  have hj : (cfg0.win 6).xinj (grid0.coords t) j
      = ix3 (⟨(j 0).val, hu⟩ : Fin 1) (⟨(j 1).val, hc⟩ : Fin 512) (⟨(j 2).val, hk⟩ : Fin 1024) :=
    funext fun a => by
      match a with
      | ⟨0, _⟩ => rfl
      | ⟨1, _⟩ => rfl
      | ⟨2, _⟩ => rfl
  have he : ((cfg0.win 6).blk t).view.emb j
      = ix3 (⟨t.val, lt_N t⟩ : Fin 64) (⟨(j 1).val, hc⟩ : Fin 512) (⟨(j 2).val, hk⟩ : Fin 1024) :=
    funext fun a => Fin.ext (by
      match a with
      | ⟨0, _⟩ => show win0_6.index t (0 : Fin 3) * 1 + 1 * (j 0).val = t.val; rw [e0]; omega
      | ⟨1, _⟩ => show win0_6.index t (1 : Fin 3) * 512 + 1 * (j 1).val = (j 1).val; rw [e1]; omega
      | ⟨2, _⟩ => show win0_6.index t (2 : Fin 3) * 1024 + 1 * (j 2).val = (j 2).val; rw [e2]; omega)
  show k0_pay1 (F := Ideal) (iblk m c 0 t) (iblk m c 1 t) (iblk m c 2 t) (iblk m c 3 t) (iblk m c 4 t) (iblk m c 5 t)
      ((cfg0.win 6).xinj (grid0.coords t) j) = GV m c (((cfg0.win 6).blk t).view.emb j)
  rw [hj, he]
  exact Cert.KernelIdeal.Body.point_eq (iblk m c 0 t) (iblk m c 1 t) (iblk m c 2 t) (iblk m c 3 t) (iblk m c 4 t)
    (iblk m c 5 t) (V m c main_v0) (V m c main_arg1) (V m c main_v1) (V m c main_v2) (V m c main_arg4) (V m c main_v3)
    (⟨t.val, lt_N t⟩ : Fin 64) (fun ch k => iblk0_apply m c t 0 ch k) (iblk1_apply m c t) (iblk2_apply m c t)
    (iblk3_apply m c t) (iblk4_apply m c t) (iblk5_apply m c t) ⟨(j 0).val, hu⟩ ⟨(j 1).val, hc⟩ ⟨(j 2).val, hk⟩

/-- An index of the output array is in point t's block iff each coordinate is in the block's range on its axis. -/
theorem mem_blk (t : Fin cfg0.N) (i : S64x512x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v4).slice (win0_6.rect t)).set ↔ _
  rw [View.set_slice_whole, Rect.mem_set_unit]
  exact Iff.rfl

/-- Every index of the output array is in the block of the point its image coordinate names. -/
theorem cover (i : S64x512x1024.Idx) :
    ∃ t : Fin cfg0.N, (cfg0.win 6).flush t = true ∧ i ∈ ((cfg0.win 6).blk t).view.set := by
  have hi0 : (i 0).val < 64 := (i 0).isLt
  have hi1 : (i 1).val < 512 := (i 1).isLt
  have hi2 : (i 2).val < 1024 := (i 2).isLt
  obtain ⟨t, ht⟩ : ∃ t : Fin cfg0.N, t.val = (i 0).val :=
    ⟨⟨(i 0).val, lt_of_lt_of_eq hi0 (show cfg0.N = 64 from N_0).symm⟩, rfl⟩
  obtain ⟨-, -, -, e0, e1, e2, -⟩ := idx_facts t
  refine ⟨t, flush0_6 t, ?_⟩
  rw [mem_blk]
  intro a
  match a with
  | ⟨0, _⟩ =>
    show win0_6.index t (0 : Fin 3) * 1 ≤ (i 0).val ∧ (i 0).val < win0_6.index t (0 : Fin 3) * 1 + 1
    rw [e0]; omega
  | ⟨1, _⟩ =>
    show win0_6.index t (1 : Fin 3) * 512 ≤ (i 1).val ∧ (i 1).val < win0_6.index t (1 : Fin 3) * 512 + 512
    rw [e1]; omega
  | ⟨2, _⟩ =>
    show win0_6.index t (2 : Fin 3) * 1024 ≤ (i 2).val ∧ (i 2).val < win0_6.index t (2 : Fin 3) * 1024 + 1024
    rw [e2]; omega

/-- The output array after the run is the whole-array function. -/
theorem final (c : Dev nD) : (dats m 0 c).arrAt 6 cfg0.N = GV m c :=
  (dats m 0 c).arrAt_eq_of_cover 6 (GV m c) (fun t _ => flushed_eq m c t) cover

/-! ## The lines around the region -/

/-- The activation array as the region finds it: the argument with its two pixel axes merged. -/
theorem V_v0 (c : Dev nD) : (V m c main_v0 : S64x512x1024.Idx → EReal)
    = shapeCast S64x512x1024 (m ((c : Thread nD τ).loc main_arg0)) shapeCasts_S64x512x32x32_S64x512x1024 := by
  show StableHlo.after hostOps0 (fun b => m (c, b)) (Proc.devRef .tc main_v0) = _
  after_results
  rfl

/-- The first layer's bias as the region finds it: the argument as one column. -/
theorem V_v1 (c : Dev nD) : (V m c main_v1 : S32x1.Idx → EReal)
    = shapeCast S32x1 (m ((c : Thread nD τ).loc main_arg2)) shapeCasts_S32_S32x1 := by
  show StableHlo.after hostOps0 (fun b => m (c, b)) (Proc.devRef .tc main_v1) = _
  after_results
  rfl

/-- The rectifier's slopes as the region finds them: the argument as one column. -/
theorem V_v2 (c : Dev nD) : (V m c main_v2 : S32x1.Idx → EReal)
    = shapeCast S32x1 (m ((c : Thread nD τ).loc main_arg3)) shapeCasts_S32_S32x1 := by
  show StableHlo.after hostOps0 (fun b => m (c, b)) (Proc.devRef .tc main_v2) = _
  after_results
  rfl

/-- The second layer's bias as the region finds it: the argument as one column. -/
theorem V_v3 (c : Dev nD) : (V m c main_v3 : S512x1.Idx → EReal)
    = shapeCast S512x1 (m ((c : Thread nD τ).loc main_arg5)) shapeCasts_S512_S512x1 := by
  show StableHlo.after hostOps0 (fun b => m (c, b)) (Proc.devRef .tc main_v3) = _
  after_results
  rfl

/-- The program's result over the argument arrays (the specification's, at this program's shape facts). -/
abbrev res (c : Dev nD) : S64x512x32x32.Idx → EReal :=
  Cert.Excite.result shapeCasts_S64x512x32x32_S64x512x1024 shapeCasts_S32_S32x1 shapeCasts_S512_S512x1
    shapeCasts_S64x512x1024_S64x512x32x32
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The result buffer after the line that follows the region. -/
theorem tail_eq (c : Dev nD) :
    Pipeline.afterTail₀ cfgs (dats m) 0 (V0 m) [hostOps1] c main_v5 = res m c := by
  unfold Pipeline.afterTail₀
  show StableHlo.after hostOps1 _ (Proc.devRef .tc main_v5) = _
  after_results
  rw [(Pipeline.withArrays_arr spec0 launch0.win.arr_inj c _ _ 6).trans (final m c)]
  unfold res Cert.Excite.result
  rw [← V_v0 m c, ← V_v1 m c, ← V_v2 m c, ← V_v3 m c, ← V_main_arg1 m c, ← V_main_arg4 m c]
  rfl

/-- The run, read: the result buffer ends at the specification's result of the argument arrays, which end unchanged. -/
theorem run : θ_run defs (onTc (τ := τ) (main (F := Ideal))) ⟨m, fun _ => 0, ρ⟩ fun r => ∀ c : Dev nD,
      r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.RunValue

end
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibFourCols.lean ====
/-
  Four one-column matrices side by side.

  Four n x 1 columns joined along axis 1 give an n x 4 matrix whose entry (r, q) is entry r of column q.  This is
  how a body that treats four batch elements at once lays four per-element column vectors next to each other
  before one matrix product acts on all four.  Stated for any element type and any number of rows.
-/
import Idealize.ShloMosaic.Lib.Pipeline.Value
import Idealize.ShloMosaic.Lib.ValueIdx

namespace Cert.LibFourCols

open Idealize.ShloMosaic Idealize.ShloMosaic.ValueIdx

variable {α : Type}

/-- One of four, by position. -/
def pick4 {β : Type} (y0 y1 y2 y3 : β) : Fin 4 → β
  | ⟨0, _⟩ => y0
  | ⟨1, _⟩ => y1
  | ⟨2, _⟩ => y2
  | ⟨3, _⟩ => y3

/-- The joined matrix at (r, q): column q's entry of row r. -/
theorem cols_apply {n : Nat} (y0 y1 y2 y3 : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ (1 : Fin 2))
    (r : Fin n) (q : Fin 4) :
    concatenate (⟨2, ![n, 4]⟩ : Shape) (1 : Fin 2)
        [⟨(⟨2, ![n, 1]⟩ : Shape), y0⟩, ⟨(⟨2, ![n, 1]⟩ : Shape), y1⟩, ⟨(⟨2, ![n, 1]⟩ : Shape), y2⟩, ⟨(⟨2, ![n, 1]⟩ : Shape), y3⟩] h (ix2 r q)
      = pick4 y0 y1 y2 y3 q (ix2 r (0 : Fin 1)) :=
  match q with
  | ⟨0, hq⟩ =>
    concatenate_apply_piece (t := ⟨2, ![n, 4]⟩) (1 : Fin 2)
      [⟨(⟨2, ![n, 1]⟩ : Shape), y0⟩, ⟨(⟨2, ![n, 1]⟩ : Shape), y1⟩, ⟨(⟨2, ![n, 1]⟩ : Shape), y2⟩, ⟨(⟨2, ![n, 1]⟩ : Shape), y3⟩] h
      (ix2 r ⟨0, hq⟩) 0 (by show 0 < 4; omega) ⟨2, ![n, 1]⟩ y0 rfl rfl 0 rfl (ix2 r (0 : Fin 1))
      (fun b hb => by
        match b with
        | ⟨0, _⟩ => rfl
        | ⟨1, _⟩ => exact absurd rfl hb) rfl
  | ⟨1, hq⟩ =>
    concatenate_apply_piece (t := ⟨2, ![n, 4]⟩) (1 : Fin 2)
      [⟨(⟨2, ![n, 1]⟩ : Shape), y0⟩, ⟨(⟨2, ![n, 1]⟩ : Shape), y1⟩, ⟨(⟨2, ![n, 1]⟩ : Shape), y2⟩, ⟨(⟨2, ![n, 1]⟩ : Shape), y3⟩] h
      (ix2 r ⟨1, hq⟩) 1 (by show 1 < 4; omega) ⟨2, ![n, 1]⟩ y1 rfl rfl 1 rfl (ix2 r (0 : Fin 1))
      (fun b hb => by
        match b with
        | ⟨0, _⟩ => rfl
        | ⟨1, _⟩ => exact absurd rfl hb) rfl
  | ⟨2, hq⟩ =>
    concatenate_apply_piece (t := ⟨2, ![n, 4]⟩) (1 : Fin 2)
      [⟨(⟨2, ![n, 1]⟩ : Shape), y0⟩, ⟨(⟨2, ![n, 1]⟩ : Shape), y1⟩, ⟨(⟨2, ![n, 1]⟩ : Shape), y2⟩, ⟨(⟨2, ![n, 1]⟩ : Shape), y3⟩] h
      (ix2 r ⟨2, hq⟩) 2 (by show 2 < 4; omega) ⟨2, ![n, 1]⟩ y2 rfl rfl 2 rfl (ix2 r (0 : Fin 1))
      (fun b hb => by
        match b with
        | ⟨0, _⟩ => rfl
        | ⟨1, _⟩ => exact absurd rfl hb) rfl
  | ⟨3, hq⟩ =>
    concatenate_apply_piece (t := ⟨2, ![n, 4]⟩) (1 : Fin 2)
      [⟨(⟨2, ![n, 1]⟩ : Shape), y0⟩, ⟨(⟨2, ![n, 1]⟩ : Shape), y1⟩, ⟨(⟨2, ![n, 1]⟩ : Shape), y2⟩, ⟨(⟨2, ![n, 1]⟩ : Shape), y3⟩] h
      (ix2 r ⟨3, hq⟩) 3 (by show 3 < 4; omega) ⟨2, ![n, 1]⟩ y3 rfl rfl 3 rfl (ix2 r (0 : Fin 1))
      (fun b hb => by
        match b with
        | ⟨0, _⟩ => rfl
        | ⟨1, _⟩ => exact absurd rfl hb) rfl

end Cert.LibFourCols
-- ==== Proof.RefBody.lean ====
/-
  What one grid point of the reference computes, read at an index.

  The body sees four images as a 4 x 512 x 1024 block.  For each image it sums every channel's 1024 pixels and
  divides the sum by 1024; the four columns of means stand side by side as a 512 x 4 matrix, and the two layers,
  the rectifier between them and the logistic function after them act on the four columns at once.  Column q of
  the resulting 512 x 4 matrix of gates is spread over the pixels of image q and multiplies it, and the product is
  stored in place q of the output block.  A sum divided by 1024 is the sum of the entries each scaled by 2^-10,
  so read at (q, c, k) the output block is
      block(q,c,k) * gate(c),
  the gate taken over the means  sum over k' of block(q,c',k') * 2^-10  of image q.
-/
import proofs.«157985_g2000001063056853_pallasbulk_837_2_alg».proof.Proof.Gen.ReferenceIdeal.Frame
import proofs.«157985_g2000001063056853_pallasbulk_837_2_alg».proof.Proof.Spec
import proofs.«157985_g2000001063056853_pallasbulk_837_2_alg».proof.Proof.LibDot
import proofs.«157985_g2000001063056853_pallasbulk_837_2_alg».proof.Proof.LibKeepdims
import proofs.«157985_g2000001063056853_pallasbulk_837_2_alg».proof.Proof.LibRowReduce
import proofs.«157985_g2000001063056853_pallasbulk_837_2_alg».proof.Proof.LibFourCols
import Idealize.ShloMosaic.Lib.ValueLayout
import Idealize.ShloMosaic.Lib.Pipeline.Value

noncomputable section

namespace Cert.ReferenceIdeal.Body

open Cert.ReferenceIdeal Cert.ReferenceIdeal.Gen Idealize.ShloMosaic Idealize.ShloMosaic.ValueIdx Cert.Excite
open Cert.LibFourCols (pick4 cols_apply)
open scoped BigOperators

/-- The rectifier respects equal arguments. -/
theorem prelu_congr {a b s s' : EReal} (h : a = b) (h' : s = s') :
    Scalar.select (FloatOps.cmpf (F := Ideal) (φ := .f32) .oge a (Scalar.ofBits (F := Ideal) .f32 0x00000000#32)) a (s * a)
      = Scalar.select (FloatOps.cmpf (F := Ideal) (φ := .f32) .oge b (Ideal.ofBits .f32 0x00000000#32)) b (s' * b) := by
  subst h h'; rfl

/-- The pooled means of one image given as a 1 x 512 x 1024 block. -/
abbrev blockMeans (x0 : Vec Ideal S1x512x1024 .f32) : Fin 512 → EReal :=
  fun c' => ∑ k' : Fin 1024, x0 (ix3 (0 : Fin 1) c' k') * Ideal.ofBits .f32 0x3A800000#32

/-- One column of means: each channel's pixels summed from zero, the sum divided by 1024. -/
theorem mean_col (x0 : Vec Ideal S1x512x1024 .f32) (hc : S1x512x1024.ShapeCasts S512x1024)
    (h : S512x1024.Reduces [1] S512) (hφ : FKind.Formats .f32)
    (hacc : (0x00000000#32 : BitVec 32) = FKind.add.neutral .f32 hφ) (hs : S512.ShapeCasts S512x1) (c' : Fin 512) :
    divf (shapeCast S512x1 (multiReduction .add [1] S512 (shapeCast S512x1024 x0 hc) 0x00000000#32 h hφ hacc) hs)
        (broadcast S512x1 (Scalar.ofBits (F := Ideal) .f32 0x44800000#32)) (ix2 c' (0 : Fin 1))
      = blockMeans x0 c' := by
  refine (congrArg (fun z => Ideal.div z (Ideal.ofBits .f32 0x44800000#32))
    ((shapeCast_a_a1_apply _ hs c' (0 : Fin 1)).trans (Cert.LibRowReduce.rowSum_apply _ h hφ hacc c'))).trans ?_
  refine (mean_eq _).trans ?_
  exact Finset.sum_congr rfl fun k' _ =>
    congrArg (· * Ideal.ofBits .f32 0x3A800000#32) (shapeCast_1ab_ab_apply x0 hc c' k')

/-- The first layer's output before the rectifier, at hidden unit r and image q: row r of the first layer
    applied to image q's means, plus the bias. -/
theorem pay3_apply (v0 v6 v12 v18 : Vec Ideal S1x512x1024 .f32) (v25 : Vec Ideal S32x512 .f32)
    (v27 : Vec Ideal S32x1 .f32) (r : Fin 32) (q : Fin 4) :
    k0_pay3 (F := Ideal) v0 v6 v12 v18 v25 v27 (ix2 r q)
      = preact (blockMeans (pick4 v0 v6 v12 v18 q)) v25 v27 r := by
  unfold k0_pay3 Cert.Excite.preact
  refine congrArg₂ (· + ·) ?_ ((broadcastTo_a1_ab_apply _ _ r q).trans (congrFun (shapeCast_self v27 _) _))
  refine (Cert.LibDot.matmul_zero_apply _ none v25 _ r q).trans ?_
  refine Finset.sum_congr rfl fun c' _ => congrArg (v25 (ix2 r c') * ·) ?_
  refine (cols_apply _ _ _ _ _ c' q).trans ?_
  match q with
  | ⟨0, _⟩ => exact mean_col v0 _ _ _ _ _ c'
  | ⟨1, _⟩ => exact mean_col v6 _ _ _ _ _ c'
  | ⟨2, _⟩ => exact mean_col v12 _ _ _ _ _ c'
  | ⟨3, _⟩ => exact mean_col v18 _ _ _ _ _ c'

/-- The gate of channel c for image q. -/
theorem gate_apply (v0 v6 v12 v18 : Vec Ideal S1x512x1024 .f32) (v25 : Vec Ideal S32x512 .f32)
    (v27 v33 : Vec Ideal S32x1 .f32) (v38 : Vec Ideal S512x32 .f32) (v40 : Vec Ideal S512x1 .f32)
    (c : Fin 512) (q : Fin 4) :
    k0_pay5 (F := Ideal) (k0_pay3 v0 v6 v12 v18 v25 v27) (k0_pay4 v0 v6 v12 v18 v25 v27) v33 v38 v40 (ix2 c q)
      = gate (blockMeans (pick4 v0 v6 v12 v18 q)) v25 v27 v33 v38 v40 c := by
  unfold k0_pay5 Cert.Excite.gate
  refine congrArg Ideal.logistic ?_
  refine congrArg₂ (· + ·) ?_ ((broadcastTo_a1_ab_apply _ _ c q).trans (congrFun (shapeCast_self v40 _) _))
  refine (Cert.LibDot.matmul_zero_apply _ none v38 _ c q).trans ?_
  refine Finset.sum_congr rfl fun r _ => congrArg (v38 (ix2 c r) * ·) ?_
  unfold Cert.Excite.hidden
  exact prelu_congr (pay3_apply v0 v6 v12 v18 v25 v27 r q)
    ((broadcastTo_a1_ab_apply _ _ r q).trans (congrFun (shapeCast_self v33 _) _))

/-- The stored image 0: the pixel times column 0 of the gates. -/
theorem pay6_apply (v30 : FVec Ideal S32x4 .f32) (v32 : IVec S32x4 1) (v33 : Vec Ideal S32x1 .f32)
    (v38 : Vec Ideal S512x32 .f32) (v40 : Vec Ideal S512x1 .f32) (v45 : Vec Ideal S1x512x1024 .f32)
    (u : Fin 1) (c : Fin 512) (k : Fin 1024) :
    k0_pay6 (F := Ideal) v30 v32 v33 v38 v40 v45 (ix3 u c k)
      = v45 (ix3 (0 : Fin 1) c k) * k0_pay5 (F := Ideal) v30 v32 v33 v38 v40 (ix2 c (0 : Fin 4)) := by
  unfold k0_pay6
  refine (shapeCast_ab_1ab_apply _ _ u c k).trans ?_
  refine congrArg₂ (· * ·) (shapeCast_1ab_ab_apply v45 _ c k) ?_
  refine (broadcastTo_a1_ab_apply _ _ c k).trans ?_
  exact slice2_axis1_apply 0 _ _ c (0 : Fin 1) (0 : Fin 4) rfl

/-- The stored image 1: the pixel times column 1 of the gates. -/
theorem pay7_apply (v30 : FVec Ideal S32x4 .f32) (v32 : IVec S32x4 1) (v33 : Vec Ideal S32x1 .f32)
    (v38 : Vec Ideal S512x32 .f32) (v40 : Vec Ideal S512x1 .f32) (v53 : Vec Ideal S1x512x1024 .f32)
    (u : Fin 1) (c : Fin 512) (k : Fin 1024) :
    k0_pay7 (F := Ideal) v30 v32 v33 v38 v40 v53 (ix3 u c k)
      = v53 (ix3 (0 : Fin 1) c k) * k0_pay5 (F := Ideal) v30 v32 v33 v38 v40 (ix2 c (1 : Fin 4)) := by
  unfold k0_pay7
  refine (shapeCast_ab_1ab_apply _ _ u c k).trans ?_
  refine congrArg₂ (· * ·) (shapeCast_1ab_ab_apply v53 _ c k) ?_
  refine (broadcastTo_a1_ab_apply _ _ c k).trans ?_
  exact slice2_axis1_apply 1 _ _ c (0 : Fin 1) (1 : Fin 4) rfl

/-- The stored image 2: the pixel times column 2 of the gates. -/
theorem pay8_apply (v30 : FVec Ideal S32x4 .f32) (v32 : IVec S32x4 1) (v33 : Vec Ideal S32x1 .f32)
    (v38 : Vec Ideal S512x32 .f32) (v40 : Vec Ideal S512x1 .f32) (v61 : Vec Ideal S1x512x1024 .f32)
    (u : Fin 1) (c : Fin 512) (k : Fin 1024) :
    k0_pay1 (F := Ideal) (k0_pay8 (F := Ideal) v30 v32 v33 v38 v40 v61) (ix3 u c k)
      = v61 (ix3 (0 : Fin 1) c k) * k0_pay5 (F := Ideal) v30 v32 v33 v38 v40 (ix2 c (2 : Fin 4)) := by
  unfold k0_pay1 k0_pay8
  refine (shapeCast_ab_1ab_apply _ _ u c k).trans ?_
  refine congrArg₂ (· * ·) (shapeCast_1ab_ab_apply v61 _ c k) ?_
  refine (broadcastTo_a1_ab_apply _ _ c k).trans ?_
  exact slice2_axis1_apply 2 _ _ c (0 : Fin 1) (2 : Fin 4) rfl

/-- The stored image 3: the pixel times column 3 of the gates. -/
theorem pay2_apply (v44 : FVec Ideal S512x4 .f32) (v69 : Vec Ideal S1x512x1024 .f32)
    (u : Fin 1) (c : Fin 512) (k : Fin 1024) :
    k0_pay2 (F := Ideal) v44 v69 (ix3 u c k) = v69 (ix3 (0 : Fin 1) c k) * v44 (ix2 c (3 : Fin 4)) := by
  unfold k0_pay2
  refine (shapeCast_ab_1ab_apply _ _ u c k).trans ?_
  refine congrArg₂ (· * ·) (shapeCast_1ab_ab_apply v69 _ c k) ?_
  refine (broadcastTo_a1_ab_apply _ _ c k).trans ?_
  exact slice2_axis1_apply 3 _ _ c (0 : Fin 1) (3 : Fin 4) rfl

/-! ## The four stores together -/

theorem hz2 : (![0, 0] : Fin 2 → Nat) = fun _ => 0 := funext fun a => by fin_cases a <;> rfl

/-- What the body's load through the rectangle at (n, 0, 0) of one image's extents reads: image n of the block. -/
theorem ld_img (X : Vec Ideal S4x512x1024 .f32) (n : Nat) (q : Fin 4) (hq : q.val = n)
    (inb : ∀ a, (![n, 0, 0] : Fin 3 → Nat) a + S1x512x1024.size a ≤ S4x512x1024.size a)
    (u : Fin 1) (c : Fin 512) (k : Fin 1024) :
    View.ld X (Rect.unit (s := S4x512x1024) ![n, 0, 0] S1x512x1024.size inb) (ix3 u c k) = X (ix3 q c k) := by
  show X _ = X _
  refine congrArg X (funext fun a => Fin.ext ?_)
  match a with
  | ⟨0, _⟩ => show n + 1 * u.val = q.val; omega
  | ⟨1, _⟩ => show 0 + 1 * c.val = c.val; omega
  | ⟨2, _⟩ => show 0 + 1 * k.val = k.val; omega

/-- Where the store through that rectangle puts the block's entry (u, c, k): at (n, c, k). -/
theorem emb_img (n : Nat) (q : Fin 4) (hq : q.val = n)
    (inb : ∀ a, (![n, 0, 0] : Fin 3 → Nat) a + S1x512x1024.size a ≤ S4x512x1024.size a)
    (u : Fin 1) (c : Fin 512) (k : Fin 1024) :
    (Rect.unit (s := S4x512x1024) ![n, 0, 0] S1x512x1024.size inb).emb (ix3 u c k) = ix3 q c k := by
  refine funext fun a => Fin.ext ?_
  match a with
  | ⟨0, _⟩ => show n + 1 * u.val = q.val; omega
  | ⟨1, _⟩ => show 0 + 1 * c.val = c.val; omega
  | ⟨2, _⟩ => show 0 + 1 * k.val = k.val; omega

/-- The pooled means of image q of a 4-image block. -/
abbrev imgMeans (X : Vec Ideal S4x512x1024 .f32) (q : Fin 4) : Fin 512 → EReal :=
  fun c' => ∑ k' : Fin 1024, X (ix3 q c' k') * Ideal.ofBits .f32 0x3A800000#32

/-- The means of a loaded image are the means of that image of the block. -/
theorem means_img (X : Vec Ideal S4x512x1024 .f32) (n : Nat) (q : Fin 4) (hq : q.val = n)
    (inb : ∀ a, (![n, 0, 0] : Fin 3 → Nat) a + S1x512x1024.size a ≤ S4x512x1024.size a) :
    blockMeans (View.ld X (Rect.unit (s := S4x512x1024) ![n, 0, 0] S1x512x1024.size inb)) = imgMeans X q :=
  funext fun c' => Finset.sum_congr rfl fun k' _ =>
    congrArg (· * Ideal.ofBits .f32 0x3A800000#32) (ld_img X n q hq inb (0 : Fin 1) c' k')

/-- What the body leaves in the output block, as one function of the block index: the pixel times the gate of
    its channel, the gate taken over its own image's means. -/
def Gblk (X : Vec Ideal S4x512x1024 .f32) (x1 : Vec Ideal S32x512 .f32) (x2 x3 : Vec Ideal S32x1 .f32)
    (x4 : Vec Ideal S512x32 .f32) (x5 : Vec Ideal S512x1 .f32) : S4x512x1024.Idx → EReal :=
  fun y => X y * gate (imgMeans X (y 0)) x1 x2 x3 x4 x5 (y 1)

theorem Gblk_apply (X : Vec Ideal S4x512x1024 .f32) (x1 : Vec Ideal S32x512 .f32) (x2 x3 : Vec Ideal S32x1 .f32)
    (x4 : Vec Ideal S512x32 .f32) (x5 : Vec Ideal S512x1 .f32) (q : Fin 4) (c : Fin 512) (k : Fin 1024) :
    Gblk X x1 x2 x3 x4 x5 (ix3 q c k) = X (ix3 q c k) * gate (imgMeans X q) x1 x2 x3 x4 x5 c := rfl

/-- The output block after the body: each of the four stores writes its image's part of that function. -/
theorem out_eq (X : Vec Ideal S4x512x1024 .f32) (x1 : Vec Ideal S32x512 .f32) (x2 x3 : Vec Ideal S32x1 .f32)
    (x4 : Vec Ideal S512x32 .f32) (x5 : Vec Ideal S512x1 .f32) :
    out0_6 (F := Ideal) X x1 x2 x3 x4 x5 = Gblk X x1 x2 x3 x4 x5 := by
  funext y
  unfold out0_6
  simp only [View.ld_unit_zero (S := S32x512) hz2, View.ld_unit_zero (S := S32x1) hz2,
    View.ld_unit_zero (S := S512x32) hz2, View.ld_unit_zero (S := S512x1) hz2]
  refine View.canon_apply_of_pieces (Val := Elt Ideal) (e := .f32) (Gblk X x1 x2 x3 x4 x5) _ ?_ y (cover0_6 _ _ _ _ y)
  intro p hp x
  simp only [List.mem_cons, List.mem_nil_iff, or_false] at hp
  rcases hp with rfl | rfl | rfl | rfl
  · obtain ⟨u, c, k, rfl⟩ : ∃ (u : Fin 1) (c : Fin 512) (k : Fin 1024), x = ix3 u c k := ⟨x 0, x 1, x 2, eq_ix3 x⟩
    refine (pay2_apply _ _ u c k).trans ?_
    show _ = Gblk X x1 x2 x3 x4 x5 (r0_3.emb (ix3 u c k))
    rw [show r0_3.emb (ix3 u c k) = ix3 (3 : Fin 4) c k from emb_img 3 3 rfl _ u c k, Gblk_apply]
    refine congrArg₂ (· * ·) (ld_img X 3 3 rfl _ (0 : Fin 1) c k) ?_
    refine (gate_apply _ _ _ _ x1 x2 x3 x4 x5 c 3).trans ?_
    exact congrArg (fun p => gate p x1 x2 x3 x4 x5 c) (means_img X 3 3 rfl _)
  · obtain ⟨u, c, k, rfl⟩ : ∃ (u : Fin 1) (c : Fin 512) (k : Fin 1024), x = ix3 u c k := ⟨x 0, x 1, x 2, eq_ix3 x⟩
    refine (pay8_apply _ _ _ _ _ _ u c k).trans ?_
    show _ = Gblk X x1 x2 x3 x4 x5 (r0_2.emb (ix3 u c k))
    rw [show r0_2.emb (ix3 u c k) = ix3 (2 : Fin 4) c k from emb_img 2 2 rfl _ u c k, Gblk_apply]
    refine congrArg₂ (· * ·) (ld_img X 2 2 rfl _ (0 : Fin 1) c k) ?_
    refine (gate_apply _ _ _ _ x1 x2 x3 x4 x5 c 2).trans ?_
    exact congrArg (fun p => gate p x1 x2 x3 x4 x5 c) (means_img X 2 2 rfl _)
  · obtain ⟨u, c, k, rfl⟩ : ∃ (u : Fin 1) (c : Fin 512) (k : Fin 1024), x = ix3 u c k := ⟨x 0, x 1, x 2, eq_ix3 x⟩
    refine (pay7_apply _ _ _ _ _ _ u c k).trans ?_
    show _ = Gblk X x1 x2 x3 x4 x5 (r0_1.emb (ix3 u c k))
    rw [show r0_1.emb (ix3 u c k) = ix3 (1 : Fin 4) c k from emb_img 1 1 rfl _ u c k, Gblk_apply]
    refine congrArg₂ (· * ·) (ld_img X 1 1 rfl _ (0 : Fin 1) c k) ?_
    refine (gate_apply _ _ _ _ x1 x2 x3 x4 x5 c 1).trans ?_
    exact congrArg (fun p => gate p x1 x2 x3 x4 x5 c) (means_img X 1 1 rfl _)
  · obtain ⟨u, c, k, rfl⟩ : ∃ (u : Fin 1) (c : Fin 512) (k : Fin 1024), x = ix3 u c k := ⟨x 0, x 1, x 2, eq_ix3 x⟩
    refine (pay6_apply _ _ _ _ _ _ u c k).trans ?_
    show _ = Gblk X x1 x2 x3 x4 x5 (r0_0.emb (ix3 u c k))
    rw [show r0_0.emb (ix3 u c k) = ix3 (0 : Fin 4) c k from emb_img 0 0 rfl _ u c k, Gblk_apply]
    refine congrArg₂ (· * ·) (ld_img X 0 0 rfl _ (0 : Fin 1) c k) ?_
    refine (gate_apply _ _ _ _ x1 x2 x3 x4 x5 c 0).trans ?_
    exact congrArg (fun p => gate p x1 x2 x3 x4 x5 c) (means_img X 0 0 rfl _)

/-- One grid point against the whole-array function: when the block's image q is image 4b + q of the activation
    array and the five parameter blocks are the parameter arrays, the output block at (q, c, k) is the result at
    (4b + q, c, k). -/
theorem point_eq (x0 : Vec Ideal S4x512x1024 .f32) (x1 : Vec Ideal S32x512 .f32) (x2 x3 : Vec Ideal S32x1 .f32)
    (x4 : Vec Ideal S512x32 .f32) (x5 : Vec Ideal S512x1 .f32)
    (X : (⟨3, ![64, 512, 1024]⟩ : Shape).Idx → EReal) (W1 : (⟨2, ![32, 512]⟩ : Shape).Idx → EReal)
    (B1 AL : (⟨2, ![32, 1]⟩ : Shape).Idx → EReal) (W2 : (⟨2, ![512, 32]⟩ : Shape).Idx → EReal)
    (B2 : (⟨2, ![512, 1]⟩ : Shape).Idx → EReal) (n : Fin 4 → Fin 64)
    (h0 : ∀ (q : Fin 4) (c : Fin 512) (k : Fin 1024), x0 (ix3 q c k) = X (ix3 (n q) c k))
    (h1 : ∀ i, x1 i = W1 i) (h2 : ∀ i, x2 i = B1 i) (h3 : ∀ i, x3 i = AL i) (h4 : ∀ i, x4 i = W2 i)
    (h5 : ∀ i, x5 i = B2 i) (q : Fin 4) (c : Fin 512) (k : Fin 1024) :
    out0_6 (F := Ideal) x0 x1 x2 x3 x4 x5 (ix3 q c k) = G X W1 B1 AL W2 B2 (ix3 (n q) c k) := by
  obtain rfl : x1 = W1 := funext h1
  obtain rfl : x2 = B1 := funext h2
  obtain rfl : x3 = AL := funext h3
  obtain rfl : x4 = W2 := funext h4
  obtain rfl : x5 = B2 := funext h5
  rw [out_eq, Gblk_apply, G_apply, h0 q c k]
  have hp : imgMeans x0 q = pooled X (n q) := funext fun c' => Finset.sum_congr rfl fun k' _ => by rw [h0 q c' k']
  rw [hp]

end Cert.ReferenceIdeal.Body

end
-- ==== Proof.RefValue.lean ====
/-
  The reference's run, read: what the result array holds when the program ends.

  The grid has 16 points, four images each: point t fetches images 4t to 4t + 3 of the activation array (viewed
  with its two pixel axes merged, 64 x 512 x 1024) and the five parameter arrays whole, and writes back the same
  four images of the output.  What point t writes back is block t of the one whole-array function G, the 16 blocks
  cover the output array, and the output array ends holding G.  The line after the region views the output with
  the pixel axes split again.
-/
import proofs.«157985_g2000001063056853_pallasbulk_837_2_alg».proof.Proof.Gen.ReferenceIdeal.Frame
import proofs.«157985_g2000001063056853_pallasbulk_837_2_alg».proof.Proof.RefBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ReferenceIdeal.RunValue

open Cert.ReferenceIdeal Cert.ReferenceIdeal.Gen Idealize.ShloMosaic.ValueIdx Cert.Excite

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: the image windows are at block t of the leading axis (four images to a block), the
    parameter windows at block zero. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem lt_N (t : Fin cfg0.N) : t.val < 16 := lt_of_lt_of_eq t.isLt (show cfg0.N = 16 from N_0)

/-- Image q of block t is image 4t + q of the array. -/
def img (t : Fin cfg0.N) (q : Fin 4) : Fin 64 := ⟨4 * t.val + q.val, by have := lt_N t; have := q.isLt; omega⟩

/-- Image q of the block at point t is image 4t + q of the activation array. -/
theorem iblk0_apply (c : Dev nD) (t : Fin cfg0.N) (q : Fin 4) (ch : Fin 512) (k : Fin 1024) :
    (iblk m c 0 t : Vec Ideal S4x512x1024 .f32) (ix3 q ch k)
      = (V m c main_v0 : S64x512x1024.Idx → EReal) (ix3 (img t q) ch k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 4 + 1 * q.val = 4 * t.val + q.val; rw [e0]; omega
  | ⟨1, _⟩ => show win0_0.index t (1 : Fin 3) * 512 + 1 * ch.val = ch.val; rw [e1]; omega
  | ⟨2, _⟩ => show win0_0.index t (2 : Fin 3) * 1024 + 1 * k.val = k.val; rw [e2]; omega

/-- Each parameter block is its whole array. -/
theorem iblk1_apply (c : Dev nD) (t : Fin cfg0.N) (i : S32x512.Idx) :
    (iblk m c 1 t : Vec Ideal S32x512 .f32) i = (V m c main_arg1 : S32x512.Idx → EReal) i := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 32 + 1 * (i 0).val = (i 0).val; rw [e0]; omega
  | ⟨1, _⟩ => show win0_1.index t (1 : Fin 2) * 512 + 1 * (i 1).val = (i 1).val; rw [e1]; omega

theorem iblk2_apply (c : Dev nD) (t : Fin cfg0.N) (i : S32x1.Idx) :
    (iblk m c 2 t : Vec Ideal S32x1 .f32) i = (V m c main_v1 : S32x1.Idx → EReal) i := by
  obtain ⟨-, -, -, -, -, -, -, -, e0, e1, -⟩ := idx_facts t
  unfold iblk
  rw [View.read_apply]
  show V m c main_v1 _ = V m c main_v1 _
  congr 1
  funext a
  apply Fin.ext
  match a with
  | ⟨0, _⟩ => show win0_2.index t (0 : Fin 2) * 32 + 1 * (i 0).val = (i 0).val; rw [e0]; omega
  | ⟨1, _⟩ => show win0_2.index t (1 : Fin 2) * 1 + 1 * (i 1).val = (i 1).val; rw [e1]; omega

theorem iblk3_apply (c : Dev nD) (t : Fin cfg0.N) (i : S32x1.Idx) :
    (iblk m c 3 t : Vec Ideal S32x1 .f32) i = (V m c main_v3 : S32x1.Idx → EReal) i := by
  obtain ⟨-, -, -, -, -, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 32 + 1 * (i 0).val = (i 0).val; rw [e0]; omega
  | ⟨1, _⟩ => show win0_3.index t (1 : Fin 2) * 1 + 1 * (i 1).val = (i 1).val; rw [e1]; omega

theorem iblk4_apply (c : Dev nD) (t : Fin cfg0.N) (i : S512x32.Idx) :
    (iblk m c 4 t : Vec Ideal S512x32 .f32) i = (V m c main_arg4 : S512x32.Idx → EReal) i := by
  obtain ⟨-, -, -, -, -, -, -, -, -, -, -, -, e0, e1, -⟩ := idx_facts t
  unfold iblk
  rw [View.read_apply]
  show V m c main_arg4 _ = V m c main_arg4 _
  congr 1
  funext a
  apply Fin.ext
  match a with
  | ⟨0, _⟩ => show win0_4.index t (0 : Fin 2) * 512 + 1 * (i 0).val = (i 0).val; rw [e0]; omega
  | ⟨1, _⟩ => show win0_4.index t (1 : Fin 2) * 32 + 1 * (i 1).val = (i 1).val; rw [e1]; omega

theorem iblk5_apply (c : Dev nD) (t : Fin cfg0.N) (i : S512x1.Idx) :
    (iblk m c 5 t : Vec Ideal S512x1 .f32) i = (V m c main_v2 : S512x1.Idx → EReal) i := by
  obtain ⟨-, -, -, -, -, -, -, -, -, -, -, -, -, -, e0, e1⟩ := idx_facts t
  unfold iblk
  rw [View.read_apply]
  show V m c main_v2 _ = V m c main_v2 _
  congr 1
  funext a
  apply Fin.ext
  match a with
  | ⟨0, _⟩ => show win0_5.index t (0 : Fin 2) * 512 + 1 * (i 0).val = (i 0).val; rw [e0]; omega
  | ⟨1, _⟩ => show win0_5.index t (1 : Fin 2) * 1 + 1 * (i 1).val = (i 1).val; rw [e1]; omega

/-- The result as the region's arrays give it: G of the activation array with merged pixel axes and the
    parameter arrays as the region finds them. -/
abbrev GV (c : Dev nD) : S64x512x1024.Idx → EReal :=
  G (V m c main_v0) (V m c main_arg1) (V m c main_v1) (V m c main_v3) (V m c main_arg4) (V m c main_v2)

/-- What point t writes back is block t of the whole-array function. -/
theorem flushed_eq (c : Dev nD) (t : Fin cfg0.N) :
    (dats m 0 c).flushed 6 t = ((cfg0.win 6).blk t).view.read (Elt Ideal) (GV m c) := by
  show (cfg0.win 6).cut (grid0.coords t) ((dats m 0 c).after 6 t) = _
  rw [after0_6]
  obtain ⟨-, -, -, e0, e1, e2, -⟩ := idx_facts t
  funext j
  have hq : (j 0).val < 4 := (j 0).isLt
  have hc : (j 1).val < 512 := (j 1).isLt
  have hk : (j 2).val < 1024 := (j 2).isLt
  have hj : (cfg0.win 6).xinj (grid0.coords t) j
      = ix3 (⟨(j 0).val, hq⟩ : Fin 4) (⟨(j 1).val, hc⟩ : Fin 512) (⟨(j 2).val, hk⟩ : Fin 1024) :=
    funext fun a => by
      match a with
      | ⟨0, _⟩ => rfl
      | ⟨1, _⟩ => rfl
      | ⟨2, _⟩ => rfl
  have he : ((cfg0.win 6).blk t).view.emb j
      = ix3 (img t ⟨(j 0).val, hq⟩) (⟨(j 1).val, hc⟩ : Fin 512) (⟨(j 2).val, hk⟩ : Fin 1024) :=
    funext fun a => Fin.ext (by
      match a with
      | ⟨0, _⟩ => show win0_6.index t (0 : Fin 3) * 4 + 1 * (j 0).val = 4 * t.val + (j 0).val; rw [e0]; omega
      | ⟨1, _⟩ => show win0_6.index t (1 : Fin 3) * 512 + 1 * (j 1).val = (j 1).val; rw [e1]; omega
      | ⟨2, _⟩ => show win0_6.index t (2 : Fin 3) * 1024 + 1 * (j 2).val = (j 2).val; rw [e2]; omega)
  show out0_6 (F := Ideal) (iblk m c 0 t) (iblk m c 1 t) (iblk m c 2 t) (iblk m c 3 t) (iblk m c 4 t) (iblk m c 5 t)
      ((cfg0.win 6).xinj (grid0.coords t) j) = GV m c (((cfg0.win 6).blk t).view.emb j)
  rw [hj, he]
  exact Cert.ReferenceIdeal.Body.point_eq (iblk m c 0 t) (iblk m c 1 t) (iblk m c 2 t) (iblk m c 3 t) (iblk m c 4 t)
    (iblk m c 5 t) (V m c main_v0) (V m c main_arg1) (V m c main_v1) (V m c main_v3) (V m c main_arg4) (V m c main_v2)
    (img t) (fun q ch k => iblk0_apply m c t q ch k) (iblk1_apply m c t) (iblk2_apply m c t)
    (iblk3_apply m c t) (iblk4_apply m c t) (iblk5_apply m c t) ⟨(j 0).val, hq⟩ ⟨(j 1).val, hc⟩ ⟨(j 2).val, hk⟩

/-- An index of the output array is in point t's block iff each coordinate is in the block's range on its axis. -/
theorem mem_blk (t : Fin cfg0.N) (i : S64x512x1024.Idx) :
    i ∈ ((cfg0.win 6).blk t).view.set ↔ ∀ a : Fin 3, win0_6.index t a * S4x512x1024.size a ≤ (i a).val
      ∧ (i a).val < win0_6.index t a * S4x512x1024.size a + S4x512x1024.size a := by
  show i ∈ ((View.whole main_v4).slice (win0_6.rect t)).set ↔ _
  rw [View.set_slice_whole, Rect.mem_set_unit]
  exact Iff.rfl

/-- Every index of the output array is in the block of the point its image coordinate, divided by four, names. -/
theorem cover (i : S64x512x1024.Idx) :
    ∃ t : Fin cfg0.N, (cfg0.win 6).flush t = true ∧ i ∈ ((cfg0.win 6).blk t).view.set := by
  have hi0 : (i 0).val < 64 := (i 0).isLt
  have hi1 : (i 1).val < 512 := (i 1).isLt
  have hi2 : (i 2).val < 1024 := (i 2).isLt
  obtain ⟨t, ht⟩ : ∃ t : Fin cfg0.N, t.val = (i 0).val / 4 :=
    ⟨⟨(i 0).val / 4, lt_of_lt_of_eq (by omega) (show cfg0.N = 16 from N_0).symm⟩, rfl⟩
  obtain ⟨-, -, -, e0, e1, e2, -⟩ := idx_facts t
  refine ⟨t, flush0_6 t, ?_⟩
  rw [mem_blk]
  intro a
  match a with
  | ⟨0, _⟩ =>
    show win0_6.index t (0 : Fin 3) * 4 ≤ (i 0).val ∧ (i 0).val < win0_6.index t (0 : Fin 3) * 4 + 4
    rw [e0]; omega
  | ⟨1, _⟩ =>
    show win0_6.index t (1 : Fin 3) * 512 ≤ (i 1).val ∧ (i 1).val < win0_6.index t (1 : Fin 3) * 512 + 512
    rw [e1]; omega
  | ⟨2, _⟩ =>
    show win0_6.index t (2 : Fin 3) * 1024 ≤ (i 2).val ∧ (i 2).val < win0_6.index t (2 : Fin 3) * 1024 + 1024
    rw [e2]; omega

/-- The output array after the run is the whole-array function. -/
theorem final (c : Dev nD) : (dats m 0 c).arrAt 6 cfg0.N = GV m c :=
  (dats m 0 c).arrAt_eq_of_cover 6 (GV m c) (fun t _ => flushed_eq m c t) cover

/-! ## The lines around the region -/

/-- The activation array as the region finds it: the argument with its two pixel axes merged. -/
theorem V_v0 (c : Dev nD) : (V m c main_v0 : S64x512x1024.Idx → EReal)
    = shapeCast S64x512x1024 (m ((c : Thread nD τ).loc main_arg0)) shapeCasts_S64x512x32x32_S64x512x1024 := by
  show StableHlo.after hostOps0 (fun b => m (c, b)) (Proc.devRef .tc main_v0) = _
  after_results
  rfl

/-- The first layer's bias as the region finds it: the argument as one column. -/
theorem V_v1 (c : Dev nD) : (V m c main_v1 : S32x1.Idx → EReal)
    = shapeCast S32x1 (m ((c : Thread nD τ).loc main_arg2)) shapeCasts_S32_S32x1 := by
  show StableHlo.after hostOps0 (fun b => m (c, b)) (Proc.devRef .tc main_v1) = _
  after_results
  rfl

/-- The second layer's bias as the region finds it: the argument as one column. -/
theorem V_v2 (c : Dev nD) : (V m c main_v2 : S512x1.Idx → EReal)
    = shapeCast S512x1 (m ((c : Thread nD τ).loc main_arg5)) shapeCasts_S512_S512x1 := by
  show StableHlo.after hostOps0 (fun b => m (c, b)) (Proc.devRef .tc main_v2) = _
  after_results
  rfl

/-- The rectifier's slopes as the region finds them: the argument as one column. -/
theorem V_v3 (c : Dev nD) : (V m c main_v3 : S32x1.Idx → EReal)
    = shapeCast S32x1 (m ((c : Thread nD τ).loc main_arg3)) shapeCasts_S32_S32x1 := by
  show StableHlo.after hostOps0 (fun b => m (c, b)) (Proc.devRef .tc main_v3) = _
  after_results
  rfl

/-- The program's result over the argument arrays (the specification's, at this program's shape facts). -/
abbrev res (c : Dev nD) : S64x512x32x32.Idx → EReal :=
  Cert.Excite.result shapeCasts_S64x512x32x32_S64x512x1024 shapeCasts_S32_S32x1 shapeCasts_S512_S512x1
    shapeCasts_S64x512x1024_S64x512x32x32
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The result buffer after the line that follows the region. -/
theorem tail_eq (c : Dev nD) :
    Pipeline.afterTail₀ cfgs (dats m) 0 (V0 m) [hostOps1] c main_v5 = res m c := by
  unfold Pipeline.afterTail₀
  show StableHlo.after hostOps1 _ (Proc.devRef .tc main_v5) = _
  after_results
  rw [(Pipeline.withArrays_arr spec0 launch0.win.arr_inj c _ _ 6).trans (final m c)]
  unfold res Cert.Excite.result
  rw [← V_v0 m c, ← V_v1 m c, ← V_v2 m c, ← V_v3 m c, ← V_main_arg1 m c, ← V_main_arg4 m c]
  rfl

/-- The run, read: the result buffer ends at the specification's result of the argument arrays, which end unchanged. -/
theorem run : θ_run defs (onTc (τ := τ) (main (F := Ideal))) ⟨m, fun _ => 0, ρ⟩ fun r => ∀ c : Dev nD,
      r.2.mem ((c.tc : Thread nD τ).loc main_v5) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.ReferenceIdeal.RunValue

end
-- ==== Proof.lean ====
/-
  A squeeze-and-excitation block, two tilings of one computation.

  Both programs take an activation array x of extents 64 x 512 x 32 x 32 and the parameters of two small dense
  layers, and return x with every channel of every image scaled by a gate in (0, 1):
      out(n,c,h,w) = x(n,c,h,w) * logistic (sum over r of w2(c,r) * prelu (sum over c' of w1(r,c') * mean(n,c') + b1(r)) + b2(c)),
  mean(n,c') the average of the 1024 pixels of channel c' of image n, prelu the rectifier with slope alpha(r) on
  the negative side.

  The kernel handles one image per grid point (64 points) and forms the means as a matrix product of the image
  with a column of the constant 2^-10; the reference handles four images per grid point (16 points), sums each
  channel's pixels, divides the sums by 1024 and carries the four images' columns side by side through the two
  layers.  On the extended reals a sum divided by 1024 is the sum of the entries each multiplied by 2^-10
  (multiplication by a nonnegative real distributes over every finite sum, infinite entries included), the matrix
  products are plain sums, and the two tilings cover the same array; so both result arrays hold one function of
  the arguments.  That function is Spec.lean's; KernelBody / KernelValue and RefBody / RefValue read it off each
  program's run.  No finiteness of the inputs is used.

  The idealization rewrote nothing, so the kernel's idealization is its own text.
-/
import proofs.«157985_g2000001063056853_pallasbulk_837_2_alg».proof.Defs
import proofs.«157985_g2000001063056853_pallasbulk_837_2_alg».proof.Proof.Gen.Kernel
import proofs.«157985_g2000001063056853_pallasbulk_837_2_alg».proof.Proof.Gen.Kernel.Skeleton
import proofs.«157985_g2000001063056853_pallasbulk_837_2_alg».proof.Proof.Gen.Kernel.Launch
import proofs.«157985_g2000001063056853_pallasbulk_837_2_alg».proof.Proof.Gen.Kernel.Points
import proofs.«157985_g2000001063056853_pallasbulk_837_2_alg».proof.Proof.Gen.Kernel.Frame
import proofs.«157985_g2000001063056853_pallasbulk_837_2_alg».proof.Proof.Gen.KernelIdeal
import proofs.«157985_g2000001063056853_pallasbulk_837_2_alg».proof.Proof.Gen.KernelIdeal.Skeleton
import proofs.«157985_g2000001063056853_pallasbulk_837_2_alg».proof.Proof.Gen.KernelIdeal.Launch
import proofs.«157985_g2000001063056853_pallasbulk_837_2_alg».proof.Proof.Gen.KernelIdeal.Points
import proofs.«157985_g2000001063056853_pallasbulk_837_2_alg».proof.Proof.Gen.KernelIdeal.Frame
import proofs.«157985_g2000001063056853_pallasbulk_837_2_alg».proof.Proof.Gen.ReferenceIdeal
import proofs.«157985_g2000001063056853_pallasbulk_837_2_alg».proof.Proof.Gen.ReferenceIdeal.Skeleton
import proofs.«157985_g2000001063056853_pallasbulk_837_2_alg».proof.Proof.Gen.ReferenceIdeal.Launch
import proofs.«157985_g2000001063056853_pallasbulk_837_2_alg».proof.Proof.Gen.ReferenceIdeal.Points
import proofs.«157985_g2000001063056853_pallasbulk_837_2_alg».proof.Proof.Gen.ReferenceIdeal.Frame
import proofs.«157985_g2000001063056853_pallasbulk_837_2_alg».proof.Proof.Gen.Pre_finite_inputs
import proofs.«157985_g2000001063056853_pallasbulk_837_2_alg».proof.Proof.KernelValue
import proofs.«157985_g2000001063056853_pallasbulk_837_2_alg».proof.Proof.RefValue
import Idealize.ShloMosaic.Adequacy
import Idealize.ShloMosaic.Init

noncomputable section

namespace Cert.Proof

open Idealize.ShloMosaic Idealize.SL.Sem

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The two idealized programs, run from memories that agree on the arguments, end with the same result array:
    each ends at the specification's result of its own arguments, and the arguments agree. -/
theorem algebraic : Cert.algebraic_KernelIdeal_ReferenceIdeal := by
  intro m ρ m' ρ' _ hagree
  refine ⟨fun c => Cert.KernelIdeal.RunValue.res m c, Cert.KernelIdeal.RunValue.run m ρ, ?_⟩
  refine (θ_run Cert.ReferenceIdeal.defs _ _).mono (fun _ h c => ⟨(h c).1.trans ?_, (h c).2⟩)
    (Cert.ReferenceIdeal.RunValue.run m' ρ')
  obtain ⟨a0, a1, a2, a3, a4, a5⟩ := hagree c
  show Cert.Excite.result _ _ _ _ _ _ _ _ _ _ = Cert.Excite.result _ _ _ _ _ _ _ _ _ _
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
